-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x3 : Shape := ⟨2, ![1600000, 3]⟩
abbrev S1600000 : Shape := ⟨1, ![1600000]⟩
abbrev S1600000x16 : Shape := ⟨2, ![1600000, 16]⟩
abbrev S64x448 : Shape := ⟨2, ![64, 448]⟩
abbrev S64 : Shape := ⟨1, ![64]⟩
abbrev S64x64 : Shape := ⟨2, ![64, 64]⟩
abbrev S64x16 : Shape := ⟨2, ![64, 16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1600000x16 : S_.BroadcastsInDim S1600000x16 (![] : Fin 0 → Fin S1600000x16.rank)
  reducesTo_S1600000x16_S_d0_1 : S1600000x16.ReducesTo [0, 1] S_
  bcast_S_S64x448 : S_.BroadcastsInDim S64x448 (![] : Fin 0 → Fin S64x448.rank)
  reducesTo_S64x448_S_d0_1 : S64x448.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_

variable [Facts]

def fn_part2 {F : FTy → Type} [FloatOps F] (main_arg8 : FVec F S64x16 .f32) (main_arg9 : FVec F S64 .f32) (main_v33 : IVec S_ 1) : IVec S_ 1 :=
  let main_v34 : FVec F S64x16 .f32 := Host.absf main_arg8
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x16 .f32) (main_arg9 : FVec F S64 .f32) (main_v13 : IVec S_ 1) (main_v16 : IVec S64x448 1) : IVec S_ 1 :=
  let main_c_5 : IVec S_ 1 := constantI S_ 1 1#1
  let main_v17 : IVec S_ 1 := (fun x v => Host.reduce IntOp.andi x v reducesTo_S64x448_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S1600000x3 32) (main_arg2 : FVec F S1600000 .f32) (main_arg3 : FVec F S1600000x16 .f32) (main_arg4 : FVec F S64x448 .f32) (main_arg5 : FVec F S64 .f32) (main_arg6 : FVec F S64x64 .f32) (main_arg7 : FVec F S64 .f32) (main_arg8 : FVec F S64x16 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000x16 .f32 := Host.absf main_arg3
  let main_cst_2 : FVec F S_ .f32 := constant S_ .f32 0x7F800000#32
  let main_v10 : FVec F S1600000x16 .f32 := broadcastInDim S1600000x16 ![] bcast_S_S1600000x16 main_cst_2
  let main_v11 : IVec S1600000x16 1 := cmpf .olt main_v9 main_v10
  let main_c_3 : IVec S_ 1 := constantI S_ 1 1#1
  let main_v12 : IVec S_ 1 := (fun x v => Host.reduce IntOp.andi x v reducesTo_S1600000x16_S_d0_1 h_S_) main_v11 main_c_3
  let main_v13 : IVec S_ 1 := andi main_v8 main_v12
  let main_v14 : FVec F S64x448 .f32 := Host.absf main_arg4
  let main_cst_4 : FVec F S_ .f32 := constant S_ .f32 0x7F800000#32
  let main_v15 : FVec F S64x448 .f32 := broadcastInDim S64x448 ![] bcast_S_S64x448 main_cst_4
  let main_v16 : IVec S64x448 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S1600000x3 : Shape := ⟨2, ![1600000, 3]⟩
abbrev S1600000 : Shape := ⟨1, ![1600000]⟩
abbrev S1600000x16 : Shape := ⟨2, ![1600000, 16]⟩
abbrev S64x448 : Shape := ⟨2, ![64, 448]⟩
abbrev S64 : Shape := ⟨1, ![64]⟩
abbrev S64x64 : Shape := ⟨2, ![64, 64]⟩
abbrev S64x16 : Shape := ⟨2, ![64, 16]⟩
abbrev S1600000x1 : Shape := ⟨2, ![1600000, 1]⟩
abbrev S_ : Shape := ⟨0, ![]⟩
abbrev S16x64 : Shape := ⟨2, ![16, 64]⟩
abbrev S1x64 : Shape := ⟨2, ![1, 64]⟩
abbrev S1600000x64 : Shape := ⟨2, ![1600000, 64]⟩
abbrev S8000x16 : Shape := ⟨2, ![8000, 16]⟩
abbrev S8000x1 : Shape := ⟨2, ![8000, 1]⟩
abbrev S8000x64 : Shape := ⟨2, ![8000, 64]⟩
abbrev S700000x64 : Shape := ⟨2, ![700000, 64]⟩
abbrev S100000x448 : Shape := ⟨2, ![100000, 448]⟩
abbrev S448x64 : Shape := ⟨2, ![448, 64]⟩
abbrev S2000x448 : Shape := ⟨2, ![2000, 448]⟩
abbrev S2000x64 : Shape := ⟨2, ![2000, 64]⟩

abbrev nBuf : Space → Nat
  | .hbm => 47
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1600000x3, .i32⟩
  | .hbm, ⟨2, _⟩ => ⟨S1600000, .f32⟩
  | .hbm, ⟨3, _⟩ => ⟨S1600000x16, .f32⟩
  | .hbm, ⟨4, _⟩ => ⟨S64x448, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x16, .f32⟩
  | .hbm, ⟨9, _⟩ => ⟨S64, .f32⟩
  | .hbm, ⟨10, _⟩ => ⟨S1600000x1, .i32⟩
  | .hbm, ⟨11, _⟩ => ⟨S1600000, .i32⟩
  | .hbm, ⟨12, _⟩ => ⟨S1600000x1, .i32⟩
  | .hbm, ⟨13, _⟩ => ⟨S1600000, .i32⟩
  | .hbm, ⟨14, _⟩ => ⟨S1600000x1, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .f32⟩
  | .hbm, ⟨21, _⟩ => ⟨S16x64, .f32⟩
  | .hbm, ⟨22, _⟩ => ⟨S1x64, .f32⟩
  | .hbm, ⟨23, _⟩ => ⟨S1600000x64, .f32⟩
  | .hbm, ⟨24, _⟩ => ⟨S1600000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S1600000x64, .f32⟩
  | .hbm, ⟨35, _⟩ => ⟨S1600000x64, .f32⟩
  | .hbm, ⟨36, _⟩ => ⟨S1600000x64, .f32⟩
  | .hbm, ⟨37, _⟩ => ⟨S_, .f32⟩
  | .hbm, ⟨38, _⟩ => ⟨S700000x64, .f32⟩
  | .hbm, ⟨39, _⟩ => ⟨S1600000x1, .i32⟩
  | .hbm, ⟨40, _⟩ => ⟨S700000x64, .f32⟩
  | .hbm, ⟨41, _⟩ => ⟨S100000x448, .f32⟩
  | .hbm, ⟨42, _⟩ => ⟨S448x64, .f32⟩
  | .hbm, ⟨43, _⟩ => ⟨S64x64, .f32⟩
  | .hbm, ⟨44, _⟩ => ⟨S1x64, .f32⟩
  | .hbm, ⟨45, _⟩ => ⟨S1x64, .f32⟩
  | .hbm, ⟨46, _⟩ => ⟨S100000x64, .f32⟩
  | .local _ .vmem, ⟨0, _⟩ => ⟨S8000x16, .f32⟩
  | .local _ .vmem, ⟨1, _⟩ => ⟨S8000x16, .f32⟩
  | .local _ .vmem, ⟨2, _⟩ => ⟨S8000x1, .f32⟩
  | .local _ .vmem, ⟨3, _⟩ => ⟨S8000x1, .f32⟩
  | .local _ .vmem, ⟨4, _⟩ => ⟨S16x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | .local _ .vmem, ⟨8, _⟩ => ⟨S2000x448, .f32⟩
  | .local _ .vmem, ⟨9, _⟩ => ⟨S2000x448, .f32⟩
  | .local _ .vmem, ⟨10, _⟩ => ⟨S2000x64, .f32⟩
  | .local _ .vmem, ⟨11, _⟩ => ⟨S2000x64, .f32⟩
  | .local _ .vmem, ⟨12, _⟩ => ⟨S448x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x448 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S448x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S1600000x3_S1600000x1_0_0 : S1600000x3.Slices ![0, 0] S1600000x1
  shapeCasts_S1600000x1_S1600000 : S1600000x1.ShapeCasts S1600000
  slices_S1600000x3_S1600000x1_0_1 : S1600000x3.Slices ![0, 1] S1600000x1
  slices_S1600000x3_S1600000x1_0_2 : S1600000x3.Slices ![0, 2] S1600000x1
  bcast_S_S1600000 : S_.BroadcastsInDim S1600000 (![] : Fin 0 → Fin S1600000.rank)
  shapeCasts_S1600000_S1600000x1 : S1600000.ShapeCasts S1600000x1
  transposes_S64x16_S16x64_1_0 : S64x16.Transposes [1, 0] S16x64
  shapeCasts_S64_S1x64 : S64.ShapeCasts S1x64
  inb_S8000x16_S8000x16_0_0 : ∀ a, (![0, 0] : Fin 2 → Nat) a + S8000x16.size a ≤ S8000x16.size a
  h_S8000x16 : 0 < S8000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  inb_S8000x64_S8000x64_0_0 : ∀ a, (![0, 0] : Fin 2 → Nat) a + S8000x64.size a ≤ S8000x64.size a
  h_S8000x64 : 0 < S8000x64.numel
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S700000x64 : S_.BroadcastsInDim S700000x64 (![] : Fin 0 → Fin S700000x64.rank)
  shapeCasts_S700000x64_S100000x448 : S700000x64.ShapeCasts S100000x448
  transposes_S64x448_S448x64_1_0 : S64x448.Transposes [1, 0] S448x64
  transposes_S64x64_S64x64_1_0 : S64x64.Transposes [1, 0] S64x64
  inb_S2000x448_S2000x448_0_0 : ∀ a, (![0, 0] : Fin 2 → Nat) a + S2000x448.size a ≤ S2000x448.size a
  h_S2000x448 : 0 < S2000x448.numel
  shapeCasts_S2000x448_S2000x448 : S2000x448.ShapeCasts S2000x448
  inb_S448x64_S448x64_0_0 : ∀ a, (![0, 0] : Fin 2 → Nat) a + S448x64.size a ≤ S448x64.size a
  h_S448x64 : 0 < S448x64.numel
  shapeCasts_S448x64_S448x64 : S448x64.ShapeCasts S448x64
  inb_S2000x64_S2000x64_0_0 : ∀ a, (![0, 0] : Fin 2 → Nat) a + S2000x64.size a ≤ S2000x64.size a
  h_S2000x64 : 0 < S2000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S2000x64 : S1x64.Broadcasts S2000x64
  dot_S8000x16_S16x64_S8000x64_1_0_0_1_n_n_wf : DotDims.WF S8000x16 S16x64 S8000x64 [1] [0] [0] [1] [] []
  gather_S100000x64_S1600000x1_S1600000x64_1_0_n_n_0_1_164_wf : GatherDims.WF S100000x64 S1600000x1 S1600000x64 [1] [0] [] [0] [] 1 ![1, 64]
  scatter_S700000x64_S1600000x1_S1600000x64_1_0_0_1_wf : ScatterDims.WF S700000x64 S1600000x1 S1600000x64 [1] [0] [0] 1
  dot_S2000x448_S448x64_S2000x64_1_0_0_1_n_n_wf : DotDims.WF S2000x448 S448x64 S2000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S1600000x16.size a
  hwx0_0 : ∀ i : grid0.Coords, EltTy.bits .f32 = 32 ∨ (Rect.block (s := S1600000x16) S8000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S1600000x1.size a
  hwx0_1 : ∀ i : grid0.Coords, EltTy.bits .f32 = 32 ∨ (Rect.block (s := S1600000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S1600000x64.size a
  hwx0_4 : ∀ i : grid0.Coords, EltTy.bits .f32 = 32 ∨ (Rect.block (s := S1600000x64) S8000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x448.size a ≤ S100000x448.size a
  hwx1_0 : ∀ i : grid1.Coords, EltTy.bits .f32 = 32 ∨ (Rect.block (s := S100000x448) S2000x448.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S448x64.size a ≤ S448x64.size a
  hwx1_2 : ∀ i : grid1.Coords, EltTy.bits .f32 = 32 ∨ (Rect.block (s := S448x64) S448x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)

variable [Facts₀]

def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S700000x64_S1600000x1_S1600000x64_1_0_0_1 : ScatterDims S700000x64 S1600000x1 S1600000x64 where
  updateWindowDims := [1]
  insertedWindowDims := [0]
  scatterDimsToOperandDims := [0]
  indexVectorDim := 1
  wf := scatter_S700000x64_S1600000x1_S1600000x64_1_0_0_1_wf
def dot_S2000x448_S448x64_S2000x64_1_0_0_1_n_n : DotDims S2000x448 S448x64 S2000x64 where
  lhsContracting := [1]
  rhsContracting := [0]
  lhsNonContracting := [0]
  rhsNonContracting := [1]
  lhsBatch := []
  rhsBatch := []
  wf := dot_S2000x448_S448x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg3) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S2000x448.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S448x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000x3 : Shape := ⟨2, ![1600000, 3]⟩
abbrev S1600000 : Shape := ⟨1, ![1600000]⟩
abbrev S1600000x16 : Shape := ⟨2, ![1600000, 16]⟩
abbrev S64x448 : Shape := ⟨2, ![64, 448]⟩
abbrev S64 : Shape := ⟨1, ![64]⟩
abbrev S64x64 : Shape := ⟨2, ![64, 64]⟩
abbrev S64x16 : Shape := ⟨2, ![64, 16]⟩
abbrev S1600000x1 : Shape := ⟨2, ![1600000, 1]⟩
abbrev S_ : Shape := ⟨0, ![]⟩
abbrev S1600000x64 : Shape := ⟨2, ![1600000, 64]⟩
abbrev S700000x64 : Shape := ⟨2, ![700000, 64]⟩
abbrev S16x64 : Shape := ⟨2, ![16, 64]⟩
abbrev S1x64 : Shape := ⟨2, ![1, 64]⟩
abbrev S100000x448 : Shape := ⟨2, ![100000, 448]⟩
abbrev S448x64 : Shape := ⟨2, ![448, 64]⟩

abbrev nBuf : Space → Nat
  | .hbm => 64
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x3, .i32⟩
  | .hbm, ⟨2, _⟩ => ⟨S1600000, .f32⟩
  | .hbm, ⟨3, _⟩ => ⟨S1600000x16, .f32⟩
  | .hbm, ⟨4, _⟩ => ⟨S64x448, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x16, .f32⟩
  | .hbm, ⟨9, _⟩ => ⟨S64, .f32⟩
  | .hbm, ⟨10, _⟩ => ⟨S1600000x1, .i32⟩
  | .hbm, ⟨11, _⟩ => ⟨S1600000, .i32⟩
  | .hbm, ⟨12, _⟩ => ⟨S1600000x1, .i32⟩
  | .hbm, ⟨13, _⟩ => ⟨S1600000, .i32⟩
  | .hbm, ⟨14, _⟩ => ⟨S1600000x1, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S1600000x64, .f32⟩
  | .hbm, ⟨31, _⟩ => ⟨S1600000x64, .f32⟩
  | .hbm, ⟨32, _⟩ => ⟨S_, .f32⟩
  | .hbm, ⟨33, _⟩ => ⟨S700000x64, .f32⟩
  | .hbm, ⟨34, _⟩ => ⟨S1600000x1, .i32⟩
  | .hbm, ⟨35, _⟩ => ⟨S700000x64, .f32⟩
  | .hbm, ⟨36, _⟩ => ⟨S16x64, .f32⟩
  | .hbm, ⟨37, _⟩ => ⟨S1600000x64, .f32⟩
  | .hbm, ⟨38, _⟩ => ⟨S1x64, .f32⟩
  | .hbm, ⟨39, _⟩ => ⟨S1600000x64, .f32⟩
  | .hbm, ⟨40, _⟩ => ⟨S1600000x64, .f32⟩
  | .hbm, ⟨41, _⟩ => ⟨S1600000x1, .f32⟩
  | .hbm, ⟨42, _⟩ => ⟨S1600000x64, .f32⟩
  | .hbm, ⟨43, _⟩ => ⟨S1600000x64, .f32⟩
  | .hbm, ⟨44, _⟩ => ⟨S_, .f32⟩
  | .hbm, ⟨45, _⟩ => ⟨S700000x64, .f32⟩
  | .hbm, ⟨46, _⟩ => ⟨S1600000x1, .i32⟩
  | .hbm, ⟨47, _⟩ => ⟨S700000x64, .f32⟩
  | .hbm, ⟨48, _⟩ => ⟨S700000x64, .f32⟩
  | .hbm, ⟨49, _⟩ => ⟨S100000x448, .f32⟩
  | .hbm, ⟨50, _⟩ => ⟨S448x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S64x64, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call0_cst : Ref sig .tc := ⟨.hbm, 61, rfl⟩
abbrev main_call0_v0 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S1600000x3_S1600000x1_0_0 : S1600000x3.Slices ![0, 0] S1600000x1
  shapeCasts_S1600000x1_S1600000 : S1600000x1.ShapeCasts S1600000
  slices_S1600000x3_S1600000x1_0_1 : S1600000x3.Slices ![0, 1] S1600000x1
  slices_S1600000x3_S1600000x1_0_2 : S1600000x3.Slices ![0, 2] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S700000x64 : S_.BroadcastsInDim S700000x64 (![] : Fin 0 → Fin S700000x64.rank)
  transposes_S64x16_S16x64_1_0 : S64x16.Transposes [1, 0] S16x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  shapeCasts_S700000x64_S100000x448 : S700000x64.ShapeCasts S100000x448
  transposes_S64x448_S448x64_1_0 : S64x448.Transposes [1, 0] S448x64
  bcast_S1x64_S100000x64_0_1 : S1x64.BroadcastsInDim S100000x64 (![0, 1] : Fin 2 → Fin S100000x64.rank)
  transposes_S64x64_S64x64_1_0 : S64x64.Transposes [1, 0] S64x64
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  scatter_S700000x64_S1600000x1_S1600000x64_1_0_0_1_wf : ScatterDims.WF S700000x64 S1600000x1 S1600000x64 [1] [0] [0] 1
  dot_S1600000x16_S16x64_S1600000x64_1_0_0_1_n_n_wf : DotDims.WF S1600000x16 S16x64 S1600000x64 [1] [0] [0] [1] [] []
  dot_S100000x448_S448x64_S100000x64_1_0_0_1_n_n_wf : DotDims.WF S100000x448 S448x64 S100000x64 [1] [0] [0] [1] [] []
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S700000x64_S1600000x1_S1600000x64_1_0_0_1 : ScatterDims S700000x64 S1600000x1 S1600000x64 where
  updateWindowDims := [1]
  insertedWindowDims := [0]
  scatterDimsToOperandDims := [0]
  indexVectorDim := 1
  wf := scatter_S700000x64_S1600000x1_S1600000x64_1_0_0_1_wf
def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def dot_S100000x448_S448x64_S100000x64_1_0_0_1_n_n : DotDims S100000x448 S448x64 S100000x64 where
  lhsContracting := [1]
  rhsContracting := [0]
  lhsNonContracting := [0]
  rhsNonContracting := [1]
  lhsBatch := []
  rhsBatch := []
  wf := dot_S100000x448_S448x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run with its result named. The program is four segments: the host operations before
  the first launch, the edge kernel's 200 grid points, the host operations between the launches (gather, message,
  scatter-add, reshape, transposes), and the final kernel's 50 grid points. Every weakly fair execution terminates with
  every buffer at the contents the four segments fold from the launch memory; in particular the result buffer holds the
  final kernel's output array as its write-backs leave it, and the ten argument arrays are as launched.
-/
import proofs.«114334_j61297773248646_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents the
    last segment boundary gives it and the arguments as launched. -/
theorem run_named : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.KernelRun

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.EdgeBody.lean ====
/-
  The edge kernel's body at one entry. A block holds 8000 edges; for edge `p` of the block and output channel `q` the
  body computes  (Σ_k ef[p, k] · Wt[k, q] + b[0, q]) · w[p, 0]:  the 16-term product of the edge's feature row with a
  column of the transposed edge weight, the bias of that channel added, the whole scaled by the edge's weight.
  The narrowing of the operands to the shorter float format before the product is the identity on exact values.
-/
import proofs.«114334_j61297773248646_1_alg».proof.Proof.Gen.KernelIdeal.Skeleton
import proofs.«114334_j61297773248646_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeBody

open Cert.KernelIdeal Cert.KernelIdeal.Gen Idealize.ShloMosaic Idealize.ShloMosaic.ValueIdx

theorem edge_matmul_apply_l0 (i : S8000x64.Idx) (q : dot_S8000x16_S16x64_S8000x64_1_0_0_1_n_n.contr.Idx) : (dot_S8000x16_S16x64_S8000x64_1_0_0_1_n_n.lhsIdx i q 0).val = (i 0).val := by
  unfold DotDims.lhsIdx
  rw [dif_neg (show ¬(0 : Fin S8000x16.rank) ∈ dot_S8000x16_S16x64_S8000x64_1_0_0_1_n_n.lhsBatch by decide), dif_pos (show (0 : Fin S8000x16.rank) ∈ dot_S8000x16_S16x64_S8000x64_1_0_0_1_n_n.lhsNonContracting by decide)]
  rfl
theorem edge_matmul_apply_l1 (i : S8000x64.Idx) (q : dot_S8000x16_S16x64_S8000x64_1_0_0_1_n_n.contr.Idx) : (dot_S8000x16_S16x64_S8000x64_1_0_0_1_n_n.lhsIdx i q 1).val = (q ⟨0, by decide⟩).val :=
  dot_S8000x16_S16x64_S8000x64_1_0_0_1_n_n.lhsIdx_val_of_single rfl i q
theorem edge_matmul_apply_r0 (i : S8000x64.Idx) (q : dot_S8000x16_S16x64_S8000x64_1_0_0_1_n_n.contr.Idx) : (dot_S8000x16_S16x64_S8000x64_1_0_0_1_n_n.rhsIdx i q 0).val = (q ⟨0, by decide⟩).val :=
  dot_S8000x16_S16x64_S8000x64_1_0_0_1_n_n.rhsIdx_val_of_single rfl i q
theorem edge_matmul_apply_r1 (i : S8000x64.Idx) (q : dot_S8000x16_S16x64_S8000x64_1_0_0_1_n_n.contr.Idx) : (dot_S8000x16_S16x64_S8000x64_1_0_0_1_n_n.rhsIdx i q 1).val = (i 1).val := by
  unfold DotDims.rhsIdx
  rw [dif_neg (show ¬(1 : Fin S16x64.rank) ∈ dot_S8000x16_S16x64_S8000x64_1_0_0_1_n_n.rhsBatch by decide), dif_pos (show (1 : Fin S16x64.rank) ∈ dot_S8000x16_S16x64_S8000x64_1_0_0_1_n_n.rhsNonContracting by decide)]
  rfl

/-- The product of an 8000×16 block with a 16×64 matrix into a zero accumulator, at `(p, q)`: the sum over the 16 shared coordinates. -/
theorem edge_matmul_apply {φ₁ φ₂ : FTy} (l : FVec Ideal S8000x16 φ₁) (r : FVec Ideal S16x64 φ₂) (p : Fin 8000) (q : Fin 64) :
    matmul dot_S8000x16_S16x64_S8000x64_1_0_0_1_n_n none l r (constant (F := Ideal) S8000x64 .f32 0x00000000#32) (ix2 p q)
      = ∑ k : Fin 16, l (ix2 p k) * r (ix2 k q) := by
  simp only [matmul]
  rw [Ideal.matmul_constant_zero_apply, ← Equiv.sum_comp (contrEquiv1 dot_S8000x16_S16x64_S8000x64_1_0_0_1_n_n 16 rfl rfl).symm]
  refine Finset.sum_congr rfl fun k _ => ?_
  have hk := contrEquiv1_symm_val dot_S8000x16_S16x64_S8000x64_1_0_0_1_n_n 16 rfl rfl k
  have el : dot_S8000x16_S16x64_S8000x64_1_0_0_1_n_n.lhsIdx (ix2 p q) ((contrEquiv1 dot_S8000x16_S16x64_S8000x64_1_0_0_1_n_n 16 rfl rfl).symm k) = ix2 p k := funext fun a => Fin.ext (by
    match a with
    | ⟨0, _⟩ => exact edge_matmul_apply_l0 _ _
    | ⟨1, _⟩ => exact (edge_matmul_apply_l1 _ _).trans hk)
  have er : dot_S8000x16_S16x64_S8000x64_1_0_0_1_n_n.rhsIdx (ix2 p q) ((contrEquiv1 dot_S8000x16_S16x64_S8000x64_1_0_0_1_n_n 16 rfl rfl).symm k) = ix2 k q := funext fun a => Fin.ext (by
    match a with
    | ⟨0, _⟩ => exact (edge_matmul_apply_r0 _ _).trans hk
    | ⟨1, _⟩ => exact edge_matmul_apply_r1 _ _)
  rw [el, er]

/-- The body's stored value at `(p, q)`, from the four loaded blocks. -/
theorem edge_payload_apply (ef : Vec Ideal S8000x16 .f32) (wt : Vec Ideal S16x64 .f32) (b : Vec Ideal S1x64 .f32)
    (w : Vec Ideal S8000x1 .f32) (p : Fin 8000) (q : Fin 64) :
    k0_pay1 ef wt b w (ix2 p q)
      = ((∑ k : Fin 16, ef (ix2 p k) * wt (ix2 k q)) + b (ix2 (0 : Fin 1) q)) * w (ix2 p (0 : Fin 1)) := by
  unfold k0_pay1
  rw [shapeCast_self, shapeCast_self, shapeCast_self]
  refine (mulf_apply _ _ _).trans ?_
  refine congrArg₂ (· * ·) ((addf_apply _ _ _).trans (congrArg₂ (· + ·) ?_ ?_)) ?_
  · exact edge_matmul_apply _ _ p q
  · exact broadcastTo_1b_ab_apply _ _ p q
  · exact broadcastTo_a1_ab_apply _ _ p q

end Cert.KernelIdeal.EdgeBody

end
-- ==== Proof.Spec.lean ====
/-
  The two dense pieces of the relational message-passing layer, as functions of whole arrays, entry by entry.

  * `edgeLin`: for edge `e` and channel `d`,  (Σ_k ef[e, k] · Wt[k, d] + b[0, d]) · w[e, 0]  — the edge's 16 features
    through the transposed edge weight, plus the channel's bias, scaled by the edge's weight.
  * `combine`: for node `n` and channel `d`,
      max(((Σ_k u[n, k] · Wl[k, d] + bl[0, d]) + Σ_k x[n, k] · Ws[k, d]) + bs[0, d], 0)
    — the node's aggregated 7·64 row through the transposed relation weight plus its bias, the node's own features
    through the transposed self weight, the second bias, and the positive part.
  Both the kernel (block by block) and the reference (as whole-array host operations) compute exactly these.
-/
import Idealize.ShloMosaic.PureOps.Ideal
import Idealize.ShloMosaic.Lib.ValueIdx

noncomputable section

namespace Cert.Spec

open Idealize.ShloMosaic Idealize.ShloMosaic.ValueIdx

/-- The edge transform at edge `e`, channel `d`. -/
def edgeLinAt (ef : (⟨2, ![1600000, 16]⟩ : Shape).Idx → EReal) (w : (⟨2, ![1600000, 1]⟩ : Shape).Idx → EReal)
    (wt : (⟨2, ![16, 64]⟩ : Shape).Idx → EReal) (b : (⟨2, ![1, 64]⟩ : Shape).Idx → EReal) (e : Fin 1600000) (d : Fin 64) : EReal :=
  ((∑ k : Fin 16, ef (ix2 e k) * wt (ix2 k d)) + b (ix2 (0 : Fin 1) d)) * w (ix2 e (0 : Fin 1))

/-- The edge transform as a whole array. -/
def edgeLin (ef : (⟨2, ![1600000, 16]⟩ : Shape).Idx → EReal) (w : (⟨2, ![1600000, 1]⟩ : Shape).Idx → EReal)
    (wt : (⟨2, ![16, 64]⟩ : Shape).Idx → EReal) (b : (⟨2, ![1, 64]⟩ : Shape).Idx → EReal) :
    (⟨2, ![1600000, 64]⟩ : Shape).Idx → EReal :=
  fun i => edgeLinAt ef w wt b (i 0) (i 1)

/-- The final combination at node `n`, channel `d`. -/
def combineAt (u : (⟨2, ![100000, 448]⟩ : Shape).Idx → EReal) (x : (⟨2, ![100000, 64]⟩ : Shape).Idx → EReal)
    (wl : (⟨2, ![448, 64]⟩ : Shape).Idx → EReal) (bl : (⟨2, ![1, 64]⟩ : Shape).Idx → EReal)
    (ws : (⟨2, ![64, 64]⟩ : Shape).Idx → EReal) (bs : (⟨2, ![1, 64]⟩ : Shape).Idx → EReal) (n : Fin 100000) (d : Fin 64) : EReal :=
  max ((((∑ k : Fin 448, u (ix2 n k) * wl (ix2 k d)) + bl (ix2 (0 : Fin 1) d))
          + ∑ k : Fin 64, x (ix2 n k) * ws (ix2 k d)) + bs (ix2 (0 : Fin 1) d)) (Ideal.ofBits .f32 0x00000000#32)

/-- The final combination as a whole array. -/
def combine (u : (⟨2, ![100000, 448]⟩ : Shape).Idx → EReal) (x : (⟨2, ![100000, 64]⟩ : Shape).Idx → EReal)
    (wl : (⟨2, ![448, 64]⟩ : Shape).Idx → EReal) (bl : (⟨2, ![1, 64]⟩ : Shape).Idx → EReal)
    (ws : (⟨2, ![64, 64]⟩ : Shape).Idx → EReal) (bs : (⟨2, ![1, 64]⟩ : Shape).Idx → EReal) :
    (⟨2, ![100000, 64]⟩ : Shape).Idx → EReal :=
  fun i => combineAt u x wl bl ws bs (i 0) (i 1)

end Cert.Spec

end
-- ==== Proof.EdgeArray.lean ====
/-
  The edge kernel's output array after its 200 grid points: block `t` covers edges 8000·t … 8000·t + 7999 and all 64
  channels, its feature and weight blocks are the same rows of their arrays, and the transposed edge weight and the bias
  are read whole at every point. So what point `t` writes back is block `t` of the edge transform of the whole arrays,
  the 200 blocks tile the 1600000 rows, and the array ends holding the edge transform everywhere.
-/
import proofs.«114334_j61297773248646_1_alg».proof.Proof.Gen.KernelIdeal.Frame
import proofs.«114334_j61297773248646_1_alg».proof.Proof.EdgeBody
import proofs.«114334_j61297773248646_1_alg».proof.Proof.Spec
import Idealize.ShloMosaic.Lib.Pipeline.Value

noncomputable section

namespace Cert.KernelIdeal.EdgeArray

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps over the 200 points: the feature, weight and output windows move with the point along the
    edge axis; the transposed edge weight and the bias stay at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the edge transform of the arrays as the region finds them. -/
theorem flushed_eq (c : Dev nD) (t : Fin cfg0.N) :
    (dat0 V c).flushed 4 t = ((cfg0.win 4).blk t).view.read (Elt Ideal)
      (Cert.Spec.edgeLin (V c main_arg3) (V c main_v9) (V c main_v10) (V c main_v11)) := by
  show (cfg0.win 4).cut (grid0.coords t) ((dat0 V c).after 4 t) = _
  rw [after0_4]
  unfold out0_4
  rw [View.canon_unit_zero origin_zero]
  simp only [View.ld_unit_zero (S := S8000x16) origin_zero, View.ld_unit_zero (S := S16x64) origin_zero,
    View.ld_unit_zero (S := S1x64) origin_zero, View.ld_unit_zero (S := S8000x1) origin_zero]
  obtain ⟨e00, e01, e10, e11, e20, e21, e30, e31, e40, e41⟩ := index_maps t
  have ht : t.val < 200 := t.isLt
  funext j
  obtain ⟨p, q, rfl⟩ : ∃ (p : Fin 8000) (q : Fin 64), j = ix2 p q := ⟨j 0, j 1, eq_ix2 j⟩
  have hp : p.val < 8000 := p.isLt
  have hq : q.val < 64 := q.isLt
  show k0_pay1 (iblk0 V c 0 t) (iblk0 V c 2 t) (iblk0 V c 3 t) (iblk0 V c 1 t) (ix2 p q)
      = Cert.Spec.edgeLin (V c main_arg3) (V c main_v9) (V c main_v10) (V c main_v11) (((cfg0.win 4).blk t).view.emb (ix2 p q))
  refine (EdgeBody.edge_payload_apply (iblk0 V c 0 t) (iblk0 V c 2 t) (iblk0 V c 3 t) (iblk0 V c 1 t) p q).trans ?_
  let e : Fin 1600000 := ⟨t.val * 8000 + p.val, by omega⟩
  have h4 : ((cfg0.win 4).blk t).view.emb (ix2 p q) = ix2 e q := funext fun a => Fin.ext (by
    match a with
    | ⟨0, _⟩ => show win0_4.index t (0 : Fin 2) * 8000 + 1 * p.val = t.val * 8000 + p.val; omega
    | ⟨1, _⟩ => show win0_4.index t (1 : Fin 2) * 64 + 1 * q.val = q.val; omega)
  rw [h4]
  show _ = Cert.Spec.edgeLinAt (V c main_arg3) (V c main_v9) (V c main_v10) (V c main_v11) e q
  unfold Cert.Spec.edgeLinAt
  have h0 : ∀ k : Fin 16, iblk0 V c 0 t (ix2 p k) = V c main_arg3 (ix2 e k) := fun k => by
    show V c main_arg3 (((cfg0.win 0).blk t).view.emb (ix2 p k)) = V c main_arg3 (ix2 e k)
    refine congrArg (V c main_arg3) (funext fun a => Fin.ext ?_)
    have hk : k.val < 16 := k.isLt
    match a with
    | ⟨0, _⟩ => show win0_0.index t (0 : Fin 2) * 8000 + 1 * p.val = t.val * 8000 + p.val; omega
    | ⟨1, _⟩ => show win0_0.index t (1 : Fin 2) * 16 + 1 * k.val = k.val; omega
  have h2 : ∀ k : Fin 16, iblk0 V c 2 t (ix2 k q) = V c main_v10 (ix2 k q) := fun k => by
    show V c main_v10 (((cfg0.win 2).blk t).view.emb (ix2 k q)) = V c main_v10 (ix2 k q)
    refine congrArg (V c main_v10) (funext fun a => Fin.ext ?_)
    have hk : k.val < 16 := k.isLt
    match a with
    | ⟨0, _⟩ => show win0_2.index t (0 : Fin 2) * 16 + 1 * k.val = k.val; omega
    | ⟨1, _⟩ => show win0_2.index t (1 : Fin 2) * 64 + 1 * q.val = q.val; omega
  have h3 : iblk0 V c 3 t (ix2 (0 : Fin 1) q) = V c main_v11 (ix2 (0 : Fin 1) q) := by
    show V c main_v11 (((cfg0.win 3).blk t).view.emb (ix2 (0 : Fin 1) q)) = V c main_v11 (ix2 (0 : Fin 1) q)
    refine congrArg (V c main_v11) (funext fun a => Fin.ext ?_)
    match a with
    | ⟨0, _⟩ => show win0_3.index t (0 : Fin 2) * 1 + 1 * 0 = 0; omega
    | ⟨1, _⟩ => show win0_3.index t (1 : Fin 2) * 64 + 1 * q.val = q.val; omega
  have h1 : iblk0 V c 1 t (ix2 p (0 : Fin 1)) = V c main_v9 (ix2 e (0 : Fin 1)) := by
    show V c main_v9 (((cfg0.win 1).blk t).view.emb (ix2 p (0 : Fin 1))) = V c main_v9 (ix2 e (0 : Fin 1))
    refine congrArg (V c main_v9) (funext fun a => Fin.ext ?_)
    match a with
    | ⟨0, _⟩ => show win0_1.index t (0 : Fin 2) * 8000 + 1 * p.val = t.val * 8000 + p.val; omega
    | ⟨1, _⟩ => show win0_1.index t (1 : Fin 2) * 1 + 1 * 0 = 0; omega
  simp only [h0, h2, h3, h1]

/-- An index of the array is in point `t`'s block iff each coordinate is in the block's range on its axis. -/
theorem mem_block (t : Fin cfg0.N) (i : S1600000x64.Idx) :
    i ∈ ((cfg0.win 4).blk t).view.set ↔ ∀ a : Fin 2, win0_4.index t a * S8000x64.size a ≤ (i a).val ∧ (i a).val < win0_4.index t a * S8000x64.size a + S8000x64.size a := by
  show i ∈ ((View.whole main_v12).slice (win0_4.rect t)).set ↔ _
  rw [View.set_slice_whole, Rect.mem_set_unit]
  exact Iff.rfl

/-- Every entry of the array is in the block of the point numbered by its edge divided by 8000. -/
theorem covered (i : S1600000x64.Idx) :
    ∃ t : Fin cfg0.N, (cfg0.win 4).flush t = true ∧ i ∈ ((cfg0.win 4).blk t).view.set := by
  have hi0 : (i 0).val < 1600000 := (i 0).isLt
  have hi1 : (i 1).val < 64 := (i 1).isLt
  have hlt : (i 0).val / 8000 < 200 := by omega
  obtain ⟨-, -, -, -, -, -, -, -, e40, e41⟩ := index_maps ⟨(i 0).val / 8000, hlt⟩
  refine ⟨⟨(i 0).val / 8000, hlt⟩, flush0_4 _, ?_⟩
  rw [mem_block]
  intro a
  match a with
  | ⟨0, _⟩ =>
    show win0_4.index ⟨(i 0).val / 8000, hlt⟩ (0 : Fin 2) * 8000 ≤ (i 0).val ∧ (i 0).val < win0_4.index ⟨(i 0).val / 8000, hlt⟩ (0 : Fin 2) * 8000 + 8000
    rw [e40]; show (i 0).val / 8000 * 8000 ≤ (i 0).val ∧ (i 0).val < (i 0).val / 8000 * 8000 + 8000; omega
  | ⟨1, _⟩ =>
    show win0_4.index ⟨(i 0).val / 8000, hlt⟩ (1 : Fin 2) * 64 ≤ (i 1).val ∧ (i 1).val < win0_4.index ⟨(i 0).val / 8000, hlt⟩ (1 : Fin 2) * 64 + 64
    rw [e41]; omega

/-- The output array after the region is the edge transform of the arrays as the region finds them. -/
theorem array_eq (c : Dev nD) :
    (dat0 V c).arrAt 4 cfg0.N = Cert.Spec.edgeLin (V c main_arg3) (V c main_v9) (V c main_v10) (V c main_v11) :=
  (dat0 V c).arrAt_eq_of_cover 4 _ (fun t _ => flushed_eq V c t) covered

end Cert.KernelIdeal.EdgeArray

end
-- ==== Proof.FinalBody.lean ====
/-
  The final kernel's body at one entry. A block holds 2000 nodes; for node `p` of the block and output channel `q` the
  body computes  max(((Σ_k u[p, k] · Wl[k, q] + bl[0, q]) + Σ_k x[p, k] · Ws[k, q]) + bs[0, q], 0):  the 448-term product of
  the node's aggregated row with a column of the transposed relation weight plus its bias, the 64-term product of the
  node's own features with a column of the transposed self weight, the second bias, and the positive part.
  Narrowing the operands to the shorter float format before each product is the identity on exact values.
-/
import proofs.«114334_j61297773248646_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.FinalBody

open Cert.KernelIdeal Cert.KernelIdeal.Gen Idealize.ShloMosaic Idealize.ShloMosaic.ValueIdx

theorem rel_matmul_apply_l0 (i : S2000x64.Idx) (q : dot_S2000x448_S448x64_S2000x64_1_0_0_1_n_n.contr.Idx) : (dot_S2000x448_S448x64_S2000x64_1_0_0_1_n_n.lhsIdx i q 0).val = (i 0).val := by
  unfold DotDims.lhsIdx
  rw [dif_neg (show ¬(0 : Fin S2000x448.rank) ∈ dot_S2000x448_S448x64_S2000x64_1_0_0_1_n_n.lhsBatch by decide), dif_pos (show (0 : Fin S2000x448.rank) ∈ dot_S2000x448_S448x64_S2000x64_1_0_0_1_n_n.lhsNonContracting by decide)]
  rfl
theorem rel_matmul_apply_l1 (i : S2000x64.Idx) (q : dot_S2000x448_S448x64_S2000x64_1_0_0_1_n_n.contr.Idx) : (dot_S2000x448_S448x64_S2000x64_1_0_0_1_n_n.lhsIdx i q 1).val = (q ⟨0, by decide⟩).val :=
  dot_S2000x448_S448x64_S2000x64_1_0_0_1_n_n.lhsIdx_val_of_single rfl i q
theorem rel_matmul_apply_r0 (i : S2000x64.Idx) (q : dot_S2000x448_S448x64_S2000x64_1_0_0_1_n_n.contr.Idx) : (dot_S2000x448_S448x64_S2000x64_1_0_0_1_n_n.rhsIdx i q 0).val = (q ⟨0, by decide⟩).val :=
  dot_S2000x448_S448x64_S2000x64_1_0_0_1_n_n.rhsIdx_val_of_single rfl i q
theorem rel_matmul_apply_r1 (i : S2000x64.Idx) (q : dot_S2000x448_S448x64_S2000x64_1_0_0_1_n_n.contr.Idx) : (dot_S2000x448_S448x64_S2000x64_1_0_0_1_n_n.rhsIdx i q 1).val = (i 1).val := by
  unfold DotDims.rhsIdx
  rw [dif_neg (show ¬(1 : Fin S448x64.rank) ∈ dot_S2000x448_S448x64_S2000x64_1_0_0_1_n_n.rhsBatch by decide), dif_pos (show (1 : Fin S448x64.rank) ∈ dot_S2000x448_S448x64_S2000x64_1_0_0_1_n_n.rhsNonContracting by decide)]
  rfl

/-- The product of a 2000×448 block with a 448×64 matrix into a zero accumulator, at `(p, q)`: the sum over the 448 shared coordinates. -/
theorem rel_matmul_apply {φ₁ φ₂ : FTy} (l : FVec Ideal S2000x448 φ₁) (r : FVec Ideal S448x64 φ₂) (p : Fin 2000) (q : Fin 64) :
    matmul dot_S2000x448_S448x64_S2000x64_1_0_0_1_n_n none l r (constant (F := Ideal) S2000x64 .f32 0x00000000#32) (ix2 p q)
      = ∑ k : Fin 448, l (ix2 p k) * r (ix2 k q) := by
  simp only [matmul]
  rw [Ideal.matmul_constant_zero_apply, ← Equiv.sum_comp (contrEquiv1 dot_S2000x448_S448x64_S2000x64_1_0_0_1_n_n 448 rfl rfl).symm]
  refine Finset.sum_congr rfl fun k _ => ?_
  have hk := contrEquiv1_symm_val dot_S2000x448_S448x64_S2000x64_1_0_0_1_n_n 448 rfl rfl k
  have el : dot_S2000x448_S448x64_S2000x64_1_0_0_1_n_n.lhsIdx (ix2 p q) ((contrEquiv1 dot_S2000x448_S448x64_S2000x64_1_0_0_1_n_n 448 rfl rfl).symm k) = ix2 p k := funext fun a => Fin.ext (by
    match a with
    | ⟨0, _⟩ => exact rel_matmul_apply_l0 _ _
    | ⟨1, _⟩ => exact (rel_matmul_apply_l1 _ _).trans hk)
  have er : dot_S2000x448_S448x64_S2000x64_1_0_0_1_n_n.rhsIdx (ix2 p q) ((contrEquiv1 dot_S2000x448_S448x64_S2000x64_1_0_0_1_n_n 448 rfl rfl).symm k) = ix2 k q := funext fun a => Fin.ext (by
    match a with
    | ⟨0, _⟩ => exact (rel_matmul_apply_r0 _ _).trans hk
    | ⟨1, _⟩ => exact rel_matmul_apply_r1 _ _)
  rw [el, er]

theorem self_matmul_apply_l0 (i : S2000x64.Idx) (q : dot_S2000x64_S64x64_S2000x64_1_0_0_1_n_n.contr.Idx) : (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem self_matmul_apply_l1 (i : S2000x64.Idx) (q : dot_S2000x64_S64x64_S2000x64_1_0_0_1_n_n.contr.Idx) : (dot_S2000x64_S64x64_S2000x64_1_0_0_1_n_n.lhsIdx i q 1).val = (q ⟨0, by decide⟩).val :=
  dot_S2000x64_S64x64_S2000x64_1_0_0_1_n_n.lhsIdx_val_of_single rfl i q
theorem self_matmul_apply_r0 (i : S2000x64.Idx) (q : dot_S2000x64_S64x64_S2000x64_1_0_0_1_n_n.contr.Idx) : (dot_S2000x64_S64x64_S2000x64_1_0_0_1_n_n.rhsIdx i q 0).val = (q ⟨0, by decide⟩).val :=
  dot_S2000x64_S64x64_S2000x64_1_0_0_1_n_n.rhsIdx_val_of_single rfl i q
theorem self_matmul_apply_r1 (i : S2000x64.Idx) (q : dot_S2000x64_S64x64_S2000x64_1_0_0_1_n_n.contr.Idx) : (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The product of a 2000×64 block with a 64×64 matrix into a zero accumulator, at `(p, q)`: the sum over the 64 shared coordinates. -/
theorem self_matmul_apply {φ₁ φ₂ : FTy} (l : FVec Ideal S2000x64 φ₁) (r : FVec Ideal S64x64 φ₂) (p : Fin 2000) (q : Fin 64) :
    matmul dot_S2000x64_S64x64_S2000x64_1_0_0_1_n_n none l r (constant (F := Ideal) S2000x64 .f32 0x00000000#32) (ix2 p q)
      = ∑ k : Fin 64, l (ix2 p k) * r (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact self_matmul_apply_l0 _ _
    | ⟨1, _⟩ => exact (self_matmul_apply_l1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (self_matmul_apply_r0 _ _).trans hk
    | ⟨1, _⟩ => exact self_matmul_apply_r1 _ _)
  rw [el, er]

/-- The body's stored value at `(p, q)`, from the six loaded blocks. -/
theorem final_payload_apply (u : Vec Ideal S2000x448 .f32) (wl : Vec Ideal S448x64 .f32) (x : Vec Ideal S2000x64 .f32)
    (ws : Vec Ideal S64x64 .f32) (bl : Vec Ideal S1x64 .f32) (bs : Vec Ideal S1x64 .f32) (p : Fin 2000) (q : Fin 64) :
    k1_pay1 u wl x ws bl bs (ix2 p q)
      = max ((((∑ k : Fin 448, u (ix2 p k) * wl (ix2 k q)) + bl (ix2 (0 : Fin 1) q))
              + ∑ k : Fin 64, x (ix2 p k) * ws (ix2 k q)) + bs (ix2 (0 : Fin 1) q)) (Ideal.ofBits .f32 0x00000000#32) := by
  unfold k1_pay1
  rw [shapeCast_self, shapeCast_self, shapeCast_self, shapeCast_self, shapeCast_self]
  refine (maximumf_apply _ _ _).trans ?_
  refine congrArg₂ max ?_ rfl
  refine (addf_apply _ _ _).trans (congrArg₂ (· + ·) ?_ ?_)
  · refine (addf_apply _ _ _).trans (congrArg₂ (· + ·) ?_ ?_)
    · refine (addf_apply _ _ _).trans (congrArg₂ (· + ·) ?_ ?_)
      · exact rel_matmul_apply _ _ p q
      · exact broadcastTo_1b_ab_apply _ _ p q
    · exact self_matmul_apply _ _ p q
  · exact broadcastTo_1b_ab_apply _ _ p q

end Cert.KernelIdeal.FinalBody

end
-- ==== Proof.FinalArray.lean ====
/-
  The final kernel's output array after its 50 grid points: block `t` covers nodes 2000·t … 2000·t + 1999 and all 64
  channels, its aggregated-row and node-feature blocks are the same rows of their arrays, and the two transposed weights
  and the two biases are read whole at every point. So what point `t` writes back is block `t` of the final
  combination of the whole arrays, the 50 blocks tile the 100000 rows, and the array ends holding the combination
  everywhere.
-/
import proofs.«114334_j61297773248646_1_alg».proof.Proof.Gen.KernelIdeal.Frame
import proofs.«114334_j61297773248646_1_alg».proof.Proof.FinalBody
import proofs.«114334_j61297773248646_1_alg».proof.Proof.Spec
import Idealize.ShloMosaic.Lib.Pipeline.Value

noncomputable section

namespace Cert.KernelIdeal.FinalArray

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps over the 50 points: the aggregated rows, the node features and the output move with the
    point along the node axis; the two transposed weights and the two biases stay at block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of the final combination of the arrays as the region finds them. -/
theorem flushed_eq (c : Dev nD) (t : Fin cfg1.N) :
    (dat1 V c).flushed 6 t = ((cfg1.win 6).blk t).view.read (Elt Ideal)
      (Cert.Spec.combine (V c main_v27) (V c main_arg0) (V c main_v28) (V c main_v30) (V c main_v29) (V c main_v31)) := by
  show (cfg1.win 6).cut (grid1.coords t) ((dat1 V c).after 6 t) = _
  rw [after1_6]
  unfold out1_6
  rw [View.canon_unit_zero origin_zero]
  simp only [View.ld_unit_zero (S := S2000x448) origin_zero, View.ld_unit_zero (S := S448x64) origin_zero,
    View.ld_unit_zero (S := S2000x64) origin_zero, View.ld_unit_zero (S := S64x64) origin_zero,
    View.ld_unit_zero (S := S1x64) origin_zero]
  obtain ⟨e00, e01, e10, e11, e20, e21, e30, e31, e40, e41, e50, e51, e60, e61⟩ := index_maps t
  have ht : t.val < 50 := t.isLt
  funext j
  obtain ⟨p, q, rfl⟩ : ∃ (p : Fin 2000) (q : Fin 64), j = ix2 p q := ⟨j 0, j 1, eq_ix2 j⟩
  have hp : p.val < 2000 := p.isLt
  have hq : q.val < 64 := q.isLt
  show k1_pay1 (iblk1 V c 0 t) (iblk1 V c 2 t) (iblk1 V c 1 t) (iblk1 V c 4 t) (iblk1 V c 3 t) (iblk1 V c 5 t) (ix2 p q)
      = Cert.Spec.combine (V c main_v27) (V c main_arg0) (V c main_v28) (V c main_v30) (V c main_v29) (V c main_v31)
          (((cfg1.win 6).blk t).view.emb (ix2 p q))
  refine (FinalBody.final_payload_apply (iblk1 V c 0 t) (iblk1 V c 2 t) (iblk1 V c 1 t) (iblk1 V c 4 t) (iblk1 V c 3 t) (iblk1 V c 5 t) p q).trans ?_
  let n : Fin 100000 := ⟨t.val * 2000 + p.val, by omega⟩
  have h6 : ((cfg1.win 6).blk t).view.emb (ix2 p q) = ix2 n q := funext fun a => Fin.ext (by
    match a with
    | ⟨0, _⟩ => show win1_6.index t (0 : Fin 2) * 2000 + 1 * p.val = t.val * 2000 + p.val; omega
    | ⟨1, _⟩ => show win1_6.index t (1 : Fin 2) * 64 + 1 * q.val = q.val; omega)
  rw [h6]
  show _ = Cert.Spec.combineAt (V c main_v27) (V c main_arg0) (V c main_v28) (V c main_v30) (V c main_v29) (V c main_v31) n q
  unfold Cert.Spec.combineAt
  have h0 : ∀ k : Fin 448, iblk1 V c 0 t (ix2 p k) = V c main_v27 (ix2 n k) := fun k => by
    show V c main_v27 (((cfg1.win 0).blk t).view.emb (ix2 p k)) = V c main_v27 (ix2 n k)
    refine congrArg (V c main_v27) (funext fun a => Fin.ext ?_)
    have hk : k.val < 448 := k.isLt
    match a with
    | ⟨0, _⟩ => show win1_0.index t (0 : Fin 2) * 2000 + 1 * p.val = t.val * 2000 + p.val; omega
    | ⟨1, _⟩ => show win1_0.index t (1 : Fin 2) * 448 + 1 * k.val = k.val; omega
  have h2 : ∀ k : Fin 448, iblk1 V c 2 t (ix2 k q) = V c main_v28 (ix2 k q) := fun k => by
    show V c main_v28 (((cfg1.win 2).blk t).view.emb (ix2 k q)) = V c main_v28 (ix2 k q)
    refine congrArg (V c main_v28) (funext fun a => Fin.ext ?_)
    have hk : k.val < 448 := k.isLt
    match a with
    | ⟨0, _⟩ => show win1_2.index t (0 : Fin 2) * 448 + 1 * k.val = k.val; omega
    | ⟨1, _⟩ => show win1_2.index t (1 : Fin 2) * 64 + 1 * q.val = q.val; omega
  have h1 : ∀ k : Fin 64, iblk1 V c 1 t (ix2 p k) = V c main_arg0 (ix2 n k) := fun k => by
    show V c main_arg0 (((cfg1.win 1).blk t).view.emb (ix2 p k)) = V c main_arg0 (ix2 n k)
    refine congrArg (V c main_arg0) (funext fun a => Fin.ext ?_)
    have hk : k.val < 64 := k.isLt
    match a with
    | ⟨0, _⟩ => show win1_1.index t (0 : Fin 2) * 2000 + 1 * p.val = t.val * 2000 + p.val; omega
    | ⟨1, _⟩ => show win1_1.index t (1 : Fin 2) * 64 + 1 * k.val = k.val; omega
  have h4 : ∀ k : Fin 64, iblk1 V c 4 t (ix2 k q) = V c main_v29 (ix2 k q) := fun k => by
    show V c main_v29 (((cfg1.win 4).blk t).view.emb (ix2 k q)) = V c main_v29 (ix2 k q)
    refine congrArg (V c main_v29) (funext fun a => Fin.ext ?_)
    have hk : k.val < 64 := k.isLt
    match a with
    | ⟨0, _⟩ => show win1_4.index t (0 : Fin 2) * 64 + 1 * k.val = k.val; omega
    | ⟨1, _⟩ => show win1_4.index t (1 : Fin 2) * 64 + 1 * q.val = q.val; omega
  have h3 : iblk1 V c 3 t (ix2 (0 : Fin 1) q) = V c main_v30 (ix2 (0 : Fin 1) q) := by
    show V c main_v30 (((cfg1.win 3).blk t).view.emb (ix2 (0 : Fin 1) q)) = V c main_v30 (ix2 (0 : Fin 1) q)
    refine congrArg (V c main_v30) (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega
  have h5 : iblk1 V c 5 t (ix2 (0 : Fin 1) q) = V c main_v31 (ix2 (0 : Fin 1) q) := by
    show V c main_v31 (((cfg1.win 5).blk t).view.emb (ix2 (0 : Fin 1) q)) = V c main_v31 (ix2 (0 : Fin 1) q)
    refine congrArg (V c main_v31) (funext fun a => Fin.ext ?_)
    match a with
    | ⟨0, _⟩ => show win1_5.index t (0 : Fin 2) * 1 + 1 * 0 = 0; omega
    | ⟨1, _⟩ => show win1_5.index t (1 : Fin 2) * 64 + 1 * q.val = q.val; omega
  simp only [h0, h2, h1, h4, h3, h5]

/-- An index of the array is in point `t`'s block iff each coordinate is in the block's range on its axis. -/
theorem mem_block (t : Fin cfg1.N) (i : S100000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v32).slice (win1_6.rect t)).set ↔ _
  rw [View.set_slice_whole, Rect.mem_set_unit]
  exact Iff.rfl

/-- Every entry of the array is in the block of the point numbered by its node divided by 2000. -/
theorem covered (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hlt : (i 0).val / 2000 < 50 := by omega
  obtain ⟨-, -, -, -, -, -, -, -, -, -, -, -, e60, e61⟩ := index_maps ⟨(i 0).val / 2000, hlt⟩
  refine ⟨⟨(i 0).val / 2000, hlt⟩, flush1_6 _, ?_⟩
  rw [mem_block]
  intro a
  match a with
  | ⟨0, _⟩ =>
    show win1_6.index ⟨(i 0).val / 2000, hlt⟩ (0 : Fin 2) * 2000 ≤ (i 0).val ∧ (i 0).val < win1_6.index ⟨(i 0).val / 2000, hlt⟩ (0 : Fin 2) * 2000 + 2000
    rw [e60]; show (i 0).val / 2000 * 2000 ≤ (i 0).val ∧ (i 0).val < (i 0).val / 2000 * 2000 + 2000; omega
  | ⟨1, _⟩ =>
    show win1_6.index ⟨(i 0).val / 2000, hlt⟩ (1 : Fin 2) * 64 ≤ (i 1).val ∧ (i 1).val < win1_6.index ⟨(i 0).val / 2000, hlt⟩ (1 : Fin 2) * 64 + 64
    rw [e61]; omega

/-- The output array after the region is the final combination of the arrays as the region finds them. -/
theorem array_eq (c : Dev nD) :
    (dat1 V c).arrAt 6 cfg1.N
      = Cert.Spec.combine (V c main_v27) (V c main_arg0) (V c main_v28) (V c main_v30) (V c main_v29) (V c main_v31) :=
  (dat1 V c).arrAt_eq_of_cover 6 _ (fun t _ => flushed_eq V c t) covered

end Cert.KernelIdeal.FinalArray

end
-- ==== Proof.HostStretch.lean ====
/-
  The two stretches of host operations of the kernel program, read back as functions of the buffer contents they start
  from.

  Before the edge kernel: the three columns of the edge list (source node, destination node, relation), the segment
  index  destination · 7 + relation,  the edge weights as a column, the edge matrix transposed, the edge bias as a row.

  Between the two kernels: the source node index with a negative index wrapped by the node count, the gathered source
  features scaled by the edge weight (the message), the message plus the edge kernel's output scattered with addition
  into a zero array of 700000 rows at the segment index, that array regrouped as 100000 rows of 7 · 64, the two weight
  matrices transposed and the two biases as rows.
-/
import proofs.«114334_j61297773248646_1_alg».proof.Proof.Gen.KernelIdeal.Launch
import Idealize.ShloMosaic.Lib.StableHlo.Run
import Idealize.ShloMosaic.PureOps.Ideal

noncomputable section

namespace Cert.KernelIdeal.HostStretch

open Cert.KernelIdeal Cert.KernelIdeal.Gen Idealize.ShloMosaic Idealize.ShloMosaic.TcCoe Idealize.SL.Sem Idealize.ShloMosaic.StableHlo

set_option maxRecDepth 16384

/-- The source node of every edge: column 0 of the edge list. -/
def sourceNode (el : IVec S1600000x3 32) : IVec S1600000 32 :=
  shapeCast S1600000 (extractStridedSlice S1600000x1 ![0, 0] el slices_S1600000x3_S1600000x1_0_0) shapeCasts_S1600000x1_S1600000

/-- The segment of every edge: its destination node (column 1) times 7 plus its relation (column 2). -/
def segment (el : IVec S1600000x3 32) : IVec S1600000 32 :=
  addi (muli (shapeCast S1600000 (extractStridedSlice S1600000x1 ![0, 1] el slices_S1600000x3_S1600000x1_0_1) shapeCasts_S1600000x1_S1600000)
      (broadcastInDim S1600000 ![] bcast_S_S1600000 (constantI S_ 32 7#32)))
    (shapeCast S1600000 (extractStridedSlice S1600000x1 ![0, 2] el slices_S1600000x3_S1600000x1_0_2) shapeCasts_S1600000x1_S1600000)

/-- The message of every edge: its weight times the features of its source node (a negative index wrapped once by
    the node count, as array indexing does). -/
def message (x : FVec Ideal S100000x64 .f32) (src : IVec S1600000 32) (w : FVec Ideal S1600000 .f32) : FVec Ideal S1600000x64 .f32 :=
  mulf (broadcastInDim S1600000x64 ![0, 1] bcast_S1600000x1_S1600000x64_0_1 (broadcastInDim S1600000x1 ![0] bcast_S1600000_S1600000x1_0 w))
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The aggregated array: the updates scattered with addition into zeros at the segment index, regrouped per node. -/
def aggregate (seg : IVec S1600000 32) (upd : FVec Ideal S1600000x64 .f32) : FVec Ideal S100000x448 .f32 :=
  shapeCast S100000x448
    (Host.scatterAdd scatter_S700000x64_S1600000x1_S1600000x64_1_0_0_1
      (broadcastInDim S700000x64 ![] bcast_S_S700000x64 (constant (F := Ideal) S_ .f32 0x00000000#32))
      (broadcastInDim S1600000x1 ![0] bcast_S1600000_S1600000x1_0 seg) upd)
    shapeCasts_S700000x64_S100000x448

variable (Wv : Valuation τ sig (Elt Ideal))

/-! ## The stretch before the edge kernel -/

theorem before_v1 : after hostOps0 Wv (Proc.devRef .tc main_v1) = sourceNode (Wv (Proc.devRef .tc main_arg1)) := by
  after_results <;> rfl
theorem before_v8 : after hostOps0 Wv (Proc.devRef .tc main_v8) = segment (Wv (Proc.devRef .tc main_arg1)) := by
  after_results <;> rfl
theorem before_v9 : after hostOps0 Wv (Proc.devRef .tc main_v9)
    = shapeCast S1600000x1 (Wv (Proc.devRef .tc main_arg2)) shapeCasts_S1600000_S1600000x1 := by
  after_results <;> rfl
theorem before_v10 : after hostOps0 Wv (Proc.devRef .tc main_v10)
    = transpose S16x64 [1, 0] (Wv (Proc.devRef .tc main_arg8)) transposes_S64x16_S16x64_1_0 := by
  after_results <;> rfl
theorem before_v11 : after hostOps0 Wv (Proc.devRef .tc main_v11)
    = shapeCast S1x64 (Wv (Proc.devRef .tc main_arg9)) shapeCasts_S64_S1x64 := by
  after_results <;> rfl
theorem before_arg0 : after hostOps0 Wv (Proc.devRef .tc main_arg0) = Wv (Proc.devRef .tc main_arg0) := by
  after_results
theorem before_arg2 : after hostOps0 Wv (Proc.devRef .tc main_arg2) = Wv (Proc.devRef .tc main_arg2) := by
  after_results
theorem before_arg3 : after hostOps0 Wv (Proc.devRef .tc main_arg3) = Wv (Proc.devRef .tc main_arg3) := by
  after_results
theorem before_arg4 : after hostOps0 Wv (Proc.devRef .tc main_arg4) = Wv (Proc.devRef .tc main_arg4) := by
  after_results
theorem before_arg5 : after hostOps0 Wv (Proc.devRef .tc main_arg5) = Wv (Proc.devRef .tc main_arg5) := by
  after_results
theorem before_arg6 : after hostOps0 Wv (Proc.devRef .tc main_arg6) = Wv (Proc.devRef .tc main_arg6) := by
  after_results
theorem before_arg7 : after hostOps0 Wv (Proc.devRef .tc main_arg7) = Wv (Proc.devRef .tc main_arg7) := by
  after_results

/-! ## The stretch between the two kernels -/

set_option maxHeartbeats 2000000 in
theorem between_v27 : after hostOps1 Wv (Proc.devRef .tc main_v27)
    = aggregate (Wv (Proc.devRef .tc main_v8))
        (addf (message (Wv (Proc.devRef .tc main_arg0)) (Wv (Proc.devRef .tc main_v1)) (Wv (Proc.devRef .tc main_arg2)))
          (Wv (Proc.devRef .tc main_v12))) := by
  after_results_simp <;> rfl
theorem between_v28 : after hostOps1 Wv (Proc.devRef .tc main_v28)
    = transpose S448x64 [1, 0] (Wv (Proc.devRef .tc main_arg4)) transposes_S64x448_S448x64_1_0 := by
  after_results_simp <;> rfl
theorem between_v29 : after hostOps1 Wv (Proc.devRef .tc main_v29)
    = transpose S64x64 [1, 0] (Wv (Proc.devRef .tc main_arg6)) transposes_S64x64_S64x64_1_0 := by
  after_results_simp <;> rfl
theorem between_v30 : after hostOps1 Wv (Proc.devRef .tc main_v30)
    = shapeCast S1x64 (Wv (Proc.devRef .tc main_arg5)) shapeCasts_S64_S1x64 := by
  after_results_simp <;> rfl
theorem between_v31 : after hostOps1 Wv (Proc.devRef .tc main_v31)
    = shapeCast S1x64 (Wv (Proc.devRef .tc main_arg7)) shapeCasts_S64_S1x64 := by
  after_results_simp <;> rfl
theorem between_arg0 : after hostOps1 Wv (Proc.devRef .tc main_arg0) = Wv (Proc.devRef .tc main_arg0) := by
  after_results_simp

end Cert.KernelIdeal.HostStretch

end
-- ==== Proof.KernelValue.lean ====
/-
  The idealized kernel program's result as one function of the ten argument arrays.

  The result buffer is the final kernel's output array, which is the final combination of what the region finds:
  the aggregated array, the node features, the two transposed weights and the two bias rows. The aggregated array is
  the scatter-add, at the segment index, of each edge's message plus the edge kernel's output, regrouped per node; the
  edge kernel's output is the edge transform of the edge features, the weight column, the transposed edge matrix and
  the edge bias row. Every other buffer read on the way was written by one host operation from the arguments, and the
  arguments themselves are written by nothing.
-/
import proofs.«114334_j61297773248646_1_alg».proof.Proof.KernelRun
import proofs.«114334_j61297773248646_1_alg».proof.Proof.EdgeArray
import proofs.«114334_j61297773248646_1_alg».proof.Proof.FinalArray
import proofs.«114334_j61297773248646_1_alg».proof.Proof.HostStretch

noncomputable section

namespace Cert.KernelIdeal.KernelValue

open Cert.KernelIdeal Cert.KernelIdeal.Gen Cert.KernelIdeal.HostStretch Idealize.ShloMosaic Idealize.ShloMosaic.TcCoe Idealize.SL.Sem

set_option maxRecDepth 16384

/-- The kernel program's result from its ten arguments. -/
def result (x0 : FVec Ideal S100000x64 .f32) (x1 : IVec S1600000x3 32) (x2 : FVec Ideal S1600000 .f32)
    (x3 : FVec Ideal S1600000x16 .f32) (x4 : FVec Ideal S64x448 .f32) (x5 : FVec Ideal S64 .f32)
    (x6 : FVec Ideal S64x64 .f32) (x7 : FVec Ideal S64 .f32) (x8 : FVec Ideal S64x16 .f32) (x9 : FVec Ideal S64 .f32) :
    FVec Ideal S100000x64 .f32 :=
  Cert.Spec.combine
    (aggregate (segment x1)
      (addf (message x0 (sourceNode x1) x2)
        (Cert.Spec.edgeLin x3 (shapeCast S1600000x1 x2 shapeCasts_S1600000_S1600000x1)
          (transpose S16x64 [1, 0] x8 transposes_S64x16_S16x64_1_0) (shapeCast S1x64 x9 shapeCasts_S64_S1x64))))
    x0 (transpose S448x64 [1, 0] x4 transposes_S64x448_S448x64_1_0) (shapeCast S1x64 x5 shapeCasts_S64_S1x64)
    (transpose S64x64 [1, 0] x6 transposes_S64x64_S64x64_1_0) (shapeCast S1x64 x7 shapeCasts_S64_S1x64)

variable (m : (ℓ : Loc nD τ sig) → Buf (Elt Ideal) ℓ) (ρ : Dev nD → PrngReg)

/-- The edge kernel's output array at the boundary after it, from the arguments. -/
theorem edge_output (c : Dev nD) : W2 m ρ c (Proc.devRef .tc main_v12)
    = Cert.Spec.edgeLin (m ((c : Thread nD τ).loc main_arg3)) (shapeCast S1600000x1 (m ((c : Thread nD τ).loc main_arg2)) shapeCasts_S1600000_S1600000x1)
        (transpose S16x64 [1, 0] (m ((c : Thread nD τ).loc main_arg8)) transposes_S64x16_S16x64_1_0) (shapeCast S1x64 (m ((c : Thread nD τ).loc main_arg9)) shapeCasts_S64_S1x64) := by
  refine (W2_arr m ρ c 4).trans ?_
  rw [EdgeArray.array_eq (V1 m ρ) c]
  show Cert.Spec.edgeLin (W1 m ρ c (Proc.devRef .tc main_arg3)) (W1 m ρ c (Proc.devRef .tc main_v9))
      (W1 m ρ c (Proc.devRef .tc main_v10)) (W1 m ρ c (Proc.devRef .tc main_v11)) = _
  rw [show W1 m ρ c (Proc.devRef .tc main_arg3) = _ from before_arg3 (W0 m ρ c),
    show W1 m ρ c (Proc.devRef .tc main_v9) = _ from before_v9 (W0 m ρ c),
    show W1 m ρ c (Proc.devRef .tc main_v10) = _ from before_v10 (W0 m ρ c),
    show W1 m ρ c (Proc.devRef .tc main_v11) = _ from before_v11 (W0 m ρ c)]

/-- A buffer that is no array of the edge kernel is, after it, what the first host stretch left. -/
theorem pass (c : Dev nD) (b : Ref sig .tc) (hb : ∀ w, Pipeline.arrRef spec0 w ≠ b) :
    W2 m ρ c (Proc.devRef .tc b) = StableHlo.after hostOps0 (W0 m ρ c) (Proc.devRef .tc b) :=
  W2_of_ne m ρ c b hb

/-- The result buffer after the run, from the arguments. -/
theorem result_eq (c : Dev nD) : W4 m ρ c (Proc.devRef .tc main_v32)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 6).trans ?_
  rw [FinalArray.array_eq (V3 m ρ) c]
  show Cert.Spec.combine (W3 m ρ c (Proc.devRef .tc main_v27)) (W3 m ρ c (Proc.devRef .tc main_arg0))
      (W3 m ρ c (Proc.devRef .tc main_v28)) (W3 m ρ c (Proc.devRef .tc main_v30))
      (W3 m ρ c (Proc.devRef .tc main_v29)) (W3 m ρ c (Proc.devRef .tc main_v31)) = _
  rw [show W3 m ρ c (Proc.devRef .tc main_v27) = _ from between_v27 (W2 m ρ c),
    show W3 m ρ c (Proc.devRef .tc main_arg0) = _ from between_arg0 (W2 m ρ c),
    show W3 m ρ c (Proc.devRef .tc main_v28) = _ from between_v28 (W2 m ρ c),
    show W3 m ρ c (Proc.devRef .tc main_v30) = _ from between_v30 (W2 m ρ c),
    show W3 m ρ c (Proc.devRef .tc main_v29) = _ from between_v29 (W2 m ρ c),
    show W3 m ρ c (Proc.devRef .tc main_v31) = _ from between_v31 (W2 m ρ c)]
  rw [edge_output m ρ c,
    pass m ρ c main_v8 (by decide), pass m ρ c main_v1 (by decide), pass m ρ c main_arg0 (by decide),
    pass m ρ c main_arg2 (by decide), pass m ρ c main_arg4 (by decide), pass m ρ c main_arg5 (by decide),
    pass m ρ c main_arg6 (by decide), pass m ρ c main_arg7 (by decide)]
  rw [before_v8 (W0 m ρ c), before_v1 (W0 m ρ c), before_arg0 (W0 m ρ c), before_arg2 (W0 m ρ c),
    before_arg4 (W0 m ρ c), before_arg5 (W0 m ρ c), before_arg6 (W0 m ρ c), before_arg7 (W0 m ρ c)]
  rfl

end Cert.KernelIdeal.KernelValue

end
-- ==== Proof.RefValue.lean ====
/-
  The reference's two dense stages are the same two functions the kernel computes.

  * Its edge branch — the edge features through the transposed edge weight (a 16-term product), the bias broadcast over
    edges, the edge weight broadcast over channels, the product of the two — is the edge transform, for any column
    layout of the weights, any transposed copy of the edge matrix and any row layout of the bias that hold the same
    numbers.
  * Its last stage — the aggregated rows through the transposed relation weight, the bias, the node features through
    the transposed self weight, the second bias, the maximum with zero — is the final combination of the aggregated
    array, for any transposed copies and row layouts that hold the same numbers.
  Each is read index by index: a broadcast reads its operand at the kept coordinates, a transposition swaps the two
  coordinates, and a host matrix product at (r, c) is the sum over k of left (r, k) times right (k, c).
-/
import proofs.«114334_j61297773248646_1_alg».proof.Proof.Gen.ReferenceIdeal.Read
import proofs.«114334_j61297773248646_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The reference's edge branch (the stage before its second scatter) is the edge transform. -/
theorem edge_stage (x2 : (⟨S1600000, .f32⟩ : BufTy).Contents (Elt Ideal)) (x3 : (⟨S1600000x16, .f32⟩ : BufTy).Contents (Elt Ideal))
    (x8 : (⟨S64x16, .f32⟩ : BufTy).Contents (Elt Ideal)) (x9 : (⟨S64, .f32⟩ : BufTy).Contents (Elt Ideal))
    (w : (⟨2, ![1600000, 1]⟩ : Shape).Idx → EReal) (wt : (⟨2, ![16, 64]⟩ : Shape).Idx → EReal) (b : (⟨2, ![1, 64]⟩ : Shape).Idx → EReal)
    (hw : ∀ e : Fin 1600000, w (ix2 e (0 : Fin 1)) = x2 (ix1 e))
    (hwt : ∀ (k : Fin 16) (d : Fin 64), wt (ix2 k d) = x8 (ix2 d k))
    (hb : ∀ d : Fin 64, b (ix2 (0 : Fin 1) d) = x9 (ix1 d)) :
    val_main_v29 (F := Ideal) x2 x3 x8 x9 = Cert.Spec.edgeLin x3 w wt b := by
  funext i
  obtain ⟨e, d, rfl⟩ : ∃ (e : Fin 1600000) (d : Fin 64), i = ix2 e d := ⟨i 0, i 1, eq_ix2 i⟩
  have el : ∀ k : Fin 16, lidx_main_v23 (ix2 e d) k = ix2 e k := fun k =>
    funext fun a => Fin.ext (by match a with | ⟨0, _⟩ => rfl | ⟨1, _⟩ => rfl)
  have er : ∀ k : Fin 16, idx_main_v22 (ridx_main_v23 (ix2 e d) k) = ix2 d k := fun k =>
    funext fun a => Fin.ext (by match a with | ⟨0, _⟩ => rfl | ⟨1, _⟩ => rfl)
  have eb : idx_main_v24 (idx_main_v25 (ix2 e d)) = ix1 d :=
    funext fun a => Fin.ext (by match a with | ⟨0, _⟩ => rfl)
  have ew : idx_main_v27 (idx_main_v28 (ix2 e d)) = ix1 e :=
    funext fun a => Fin.ext (by match a with | ⟨0, _⟩ => rfl)
  rw [val_main_v29_apply, val_main_v26_apply, val_main_v23_apply, val_main_v25_apply, val_main_v24_apply,
    val_main_v28_apply, val_main_v27_apply]
  simp only [val_main_v22_apply, el, er, eb, ew, Ideal.mulf_def, Ideal.addf_def]
  show _ = Cert.Spec.edgeLinAt x3 w wt b e d
  unfold Cert.Spec.edgeLinAt
  simp only [hw, hwt, hb]

/-- The reference's result is the final combination of its aggregated array (kept opaque: the sum of its two
    scatters regrouped per node), the node features, and any transposed copies and row layouts holding the weights'
    and biases' numbers. -/
theorem combine_stage (x0 : (⟨S100000x64, .f32⟩ : BufTy).Contents (Elt Ideal)) (x1 : (⟨S1600000x3, .i32⟩ : BufTy).Contents (Elt Ideal)) (x2 : (⟨S1600000, .f32⟩ : BufTy).Contents (Elt Ideal)) (x3 : (⟨S1600000x16, .f32⟩ : BufTy).Contents (Elt Ideal)) (x4 : (⟨S64x448, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x16, .f32⟩ : BufTy).Contents (Elt Ideal)) (x9 : (⟨S64, .f32⟩ : BufTy).Contents (Elt Ideal))
    (u : (⟨2, ![100000, 448]⟩ : Shape).Idx → EReal) (hu : u = val_main_v34 (F := Ideal) x0 x1 x2 x3 x8 x9)
    (wl : (⟨2, ![448, 64]⟩ : Shape).Idx → EReal) (bl : (⟨2, ![1, 64]⟩ : Shape).Idx → EReal)
    (ws : (⟨2, ![64, 64]⟩ : Shape).Idx → EReal) (bs : (⟨2, ![1, 64]⟩ : Shape).Idx → EReal)
    (hwl : ∀ (k : Fin 448) (d : Fin 64), wl (ix2 k d) = x4 (ix2 d k))
    (hbl : ∀ d : Fin 64, bl (ix2 (0 : Fin 1) d) = x5 (ix1 d))
    (hws : ∀ (k : Fin 64) (d : Fin 64), ws (ix2 k d) = x6 (ix2 d k))
    (hbs : ∀ d : Fin 64, bs (ix2 (0 : Fin 1) d) = x7 (ix1 d)) :
    val_main_v46 (F := Ideal) x0 x1 x2 x3 x4 x5 x6 x7 x8 x9 = Cert.Spec.combine u x0 wl bl ws bs := by
  subst hu
  funext i
  obtain ⟨n, d, rfl⟩ : ∃ (n : Fin 100000) (d : Fin 64), i = ix2 n d := ⟨i 0, i 1, eq_ix2 i⟩
  have el36 : ∀ k : Fin 448, lidx_main_v36 (ix2 n d) k = ix2 n k := fun k =>
    funext fun a => Fin.ext (by match a with | ⟨0, _⟩ => rfl | ⟨1, _⟩ => rfl)
  have er36 : ∀ k : Fin 448, idx_main_v35 (ridx_main_v36 (ix2 n d) k) = ix2 d k := fun k =>
    funext fun a => Fin.ext (by match a with | ⟨0, _⟩ => rfl | ⟨1, _⟩ => rfl)
  have eb5 : idx_main_v37 (idx_main_v38 (ix2 n d)) = ix1 d :=
    funext fun a => Fin.ext (by match a with | ⟨0, _⟩ => rfl)
  have el41 : ∀ k : Fin 64, lidx_main_v41 (ix2 n d) k = ix2 n k := fun k =>
    funext fun a => Fin.ext (by match a with | ⟨0, _⟩ => rfl | ⟨1, _⟩ => rfl)
  have er41 : ∀ k : Fin 64, idx_main_v40 (ridx_main_v41 (ix2 n d) k) = ix2 d k := fun k =>
    funext fun a => Fin.ext (by match a with | ⟨0, _⟩ => rfl | ⟨1, _⟩ => rfl)
  have eb7 : idx_main_v43 (idx_main_v44 (ix2 n d)) = ix1 d :=
    funext fun a => Fin.ext (by match a with | ⟨0, _⟩ => rfl)
  rw [val_main_v46_apply, val_main_v45_apply, val_main_v42_apply, val_main_v39_apply, val_main_v36_apply,
    val_main_v38_apply, val_main_v37_apply, val_main_v41_apply, val_main_v44_apply, val_main_v43_apply,
    val_main_call0_v0_apply, val_main_call0_cst_apply]
  generalize val_main_v34 (F := Ideal) x0 x1 x2 x3 x8 x9 = U
  simp only [val_main_v35_apply, val_main_v40_apply, el36, er36, eb5, el41, er41, eb7, Ideal.mulf_def, Ideal.addf_def,
    Ideal.maximumf_def, Ideal.ofBits_def]
  show _ = Cert.Spec.combineAt U x0 wl bl ws bs n d
  unfold Cert.Spec.combineAt
  simp only [hwl, hbl, hws, hbs]

end Cert.ReferenceIdeal.RefValue

end
-- ==== Proof.LibScatterSum.lean ====
/-
  The host's accumulating scatter at the exact instance is additive in its updates: every element of the result is the
  operand's element plus the sum of the updates that land on it, so scattering a sum of two update arrays into a zero
  array gives the sum of the two scatters. Only commutativity and associativity of addition on the extended reals are
  used; no finiteness is needed.
-/
import Idealize.ShloMosaic.PureOps.Ideal
import Idealize.ShloMosaic.PureOps.Contract
import Idealize.ShloMosaic.Lib.ValueIdx

namespace Cert.LibScatterSum

open Idealize.ShloMosaic

variable {s si su : Shape} {φ : FTy} {w : Nat}

/-- Scattering the pointwise sum of two update arrays into an array of zeros is the pointwise sum of the two scatters
    (each into an array of zeros), for the same scatter indices: the updates landing on an element are the same index
    set on both sides, and a finite sum of sums splits. -/
theorem scatterAdd_addf_zero (d : ScatterDims s si su) (z z' : FVec Ideal s φ) (hz : ∀ i, z i = 0) (hz' : ∀ i, z' i = 0)
    (idx : IVec si w) (a b : FVec Ideal su φ) :
    Host.scatterAdd d z idx (addf a b) = addf (Host.scatterAdd d z idx a) (Host.scatterAdd d z' idx b) := by
  funext i
  show z i + ∑ j ∈ _, (a j + b j) = (z i + ∑ j ∈ _, a j) + (z' i + ∑ j ∈ _, b j)
  rw [hz, hz', zero_add, zero_add, zero_add, Finset.sum_add_distrib]

end Cert.LibScatterSum
-- ==== Proof.Bridge.lean ====
/-
  The kernel program's result function and the reference's result are one function of the ten arguments.

  Both end in the final combination of an aggregated array with the node features, the transposed weights and the
  bias rows; the layouts agree number for number (a transposition read at (k, d) is the matrix at (d, k); a vector laid
  out as a column or as a row holds the vector's entries). The aggregated arrays differ only in arrangement: the kernel
  scatters  message + edge transform  once, the reference scatters the message and the edge transform separately, at
  the same segment indices into zero arrays, and adds the two results. The scatter with addition is additive in its
  updates, so the two are equal; the edge transform itself is the same function on both sides.
-/
import proofs.«114334_j61297773248646_1_alg».proof.Proof.KernelValue
import proofs.«114334_j61297773248646_1_alg».proof.Proof.RefValue
import proofs.«114334_j61297773248646_1_alg».proof.Proof.LibScatterSum
import proofs.«114334_j61297773248646_1_alg».proof.Proof.LibKeepdims
import Idealize.ShloMosaic.Lib.ValueLayout

noncomputable section

namespace Cert.Bridge

open Idealize.ShloMosaic Idealize.ShloMosaic.ValueIdx Cert.KernelIdeal.HostStretch

set_option maxRecDepth 16384

/-- The zero array both programs scatter into is zero at every entry. -/
theorem zeros_apply (i : Cert.KernelIdeal.S700000x64.Idx) :
    broadcastInDim Cert.KernelIdeal.S700000x64 ![] Cert.KernelIdeal.Gen.bcast_S_S700000x64 (constant (F := Ideal) Cert.KernelIdeal.S_ .f32 0x00000000#32) i = 0 := by
  show Ideal.ofBits .f32 0x00000000#32 = 0
  exact Ideal.ofBits_zero_f32

/-- The kernel's aggregated array is the reference's: one scatter of the sum against the sum of two scatters. -/
theorem aggregated_eq (x0 : (⟨Cert.ReferenceIdeal.S100000x64, .f32⟩ : BufTy).Contents (Elt Ideal)) (x1 : (⟨Cert.ReferenceIdeal.S1600000x3, .i32⟩ : BufTy).Contents (Elt Ideal)) (x2 : (⟨Cert.ReferenceIdeal.S1600000, .f32⟩ : BufTy).Contents (Elt Ideal)) (x3 : (⟨Cert.ReferenceIdeal.S1600000x16, .f32⟩ : BufTy).Contents (Elt Ideal)) (_x4 : (⟨Cert.ReferenceIdeal.S64x448, .f32⟩ : BufTy).Contents (Elt Ideal)) (_x5 : (⟨Cert.ReferenceIdeal.S64, .f32⟩ : BufTy).Contents (Elt Ideal)) (_x6 : (⟨Cert.ReferenceIdeal.S64x64, .f32⟩ : BufTy).Contents (Elt Ideal)) (_x7 : (⟨Cert.ReferenceIdeal.S64, .f32⟩ : BufTy).Contents (Elt Ideal)) (x8 : (⟨Cert.ReferenceIdeal.S64x16, .f32⟩ : BufTy).Contents (Elt Ideal)) (x9 : (⟨Cert.ReferenceIdeal.S64, .f32⟩ : BufTy).Contents (Elt Ideal)) :
    aggregate (segment x1)
      (addf (message x0 (sourceNode x1) x2)
        (Cert.Spec.edgeLin x3 (shapeCast Cert.KernelIdeal.S1600000x1 x2 Cert.KernelIdeal.Gen.shapeCasts_S1600000_S1600000x1)
          (transpose Cert.KernelIdeal.S16x64 [1, 0] x8 Cert.KernelIdeal.Gen.transposes_S64x16_S16x64_1_0) (shapeCast Cert.KernelIdeal.S1x64 x9 Cert.KernelIdeal.Gen.shapeCasts_S64_S1x64)))
      = Cert.ReferenceIdeal.Read.val_main_v34 (F := Ideal) x0 x1 x2 x3 x8 x9 := by
  unfold Cert.ReferenceIdeal.Read.val_main_v34 Cert.ReferenceIdeal.Read.val_main_v33 Cert.ReferenceIdeal.Read.val_main_v32
  rw [Cert.ReferenceIdeal.RefValue.edge_stage x2 x3 x8 x9
    (shapeCast Cert.KernelIdeal.S1600000x1 x2 Cert.KernelIdeal.Gen.shapeCasts_S1600000_S1600000x1)
    (transpose Cert.KernelIdeal.S16x64 [1, 0] x8 Cert.KernelIdeal.Gen.transposes_S64x16_S16x64_1_0)
    (shapeCast Cert.KernelIdeal.S1x64 x9 Cert.KernelIdeal.Gen.shapeCasts_S64_S1x64)
    (fun e => shapeCast_a_a1_apply x2 _ e 0)
    (fun k d => transpose_ix2_apply x8 _ k d)
    (fun d => shapeCast_a_1a_apply x9 _ 0 d)]
  unfold aggregate
  rw [Cert.LibScatterSum.scatterAdd_addf_zero _ _ _ zeros_apply zeros_apply]
  rfl

/-- The kernel program's result function is the reference's result. -/
theorem result_eq (x0 : (⟨Cert.ReferenceIdeal.S100000x64, .f32⟩ : BufTy).Contents (Elt Ideal)) (x1 : (⟨Cert.ReferenceIdeal.S1600000x3, .i32⟩ : BufTy).Contents (Elt Ideal)) (x2 : (⟨Cert.ReferenceIdeal.S1600000, .f32⟩ : BufTy).Contents (Elt Ideal)) (x3 : (⟨Cert.ReferenceIdeal.S1600000x16, .f32⟩ : BufTy).Contents (Elt Ideal)) (x4 : (⟨Cert.ReferenceIdeal.S64x448, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x16, .f32⟩ : BufTy).Contents (Elt Ideal)) (x9 : (⟨Cert.ReferenceIdeal.S64, .f32⟩ : BufTy).Contents (Elt Ideal)) :
    Cert.KernelIdeal.KernelValue.result x0 x1 x2 x3 x4 x5 x6 x7 x8 x9
      = Cert.ReferenceIdeal.Read.val_main_v46 (F := Ideal) x0 x1 x2 x3 x4 x5 x6 x7 x8 x9 := by
  unfold Cert.KernelIdeal.KernelValue.result
  exact (Cert.ReferenceIdeal.RefValue.combine_stage x0 x1 x2 x3 x4 x5 x6 x7 x8 x9 _ (aggregated_eq x0 x1 x2 x3 x4 x5 x6 x7 x8 x9)
    (transpose Cert.KernelIdeal.S448x64 [1, 0] x4 Cert.KernelIdeal.Gen.transposes_S64x448_S448x64_1_0) (shapeCast Cert.KernelIdeal.S1x64 x5 Cert.KernelIdeal.Gen.shapeCasts_S64_S1x64)
    (transpose Cert.KernelIdeal.S64x64 [1, 0] x6 Cert.KernelIdeal.Gen.transposes_S64x64_S64x64_1_0) (shapeCast Cert.KernelIdeal.S1x64 x7 Cert.KernelIdeal.Gen.shapeCasts_S64_S1x64)
    (fun k d => transpose_ix2_apply x4 _ k d)
    (fun d => shapeCast_a_1a_apply x5 _ 0 d)
    (fun k d => transpose_ix2_apply x6 _ k d)
    (fun d => shapeCast_a_1a_apply x7 _ 0 d)).symm

end Cert.Bridge

end
-- ==== Proof.lean ====
/-
  A relational message-passing layer over a graph of 100000 nodes with 64 features, 1600000 weighted edges carrying 16
  features each, and 7 relations. For every edge the layer forms a message — the edge's weight times its source node's
  features — and an edge term — the edge's features through a linear map, plus a bias, times the edge's weight; both
  are accumulated into the slot (destination node, relation); each node's 7 · 64 accumulated numbers go through a
  linear map with a bias, the node's own features through a second linear map with a bias, and the positive part of
  the sum is the result.

  The kernel program computes the edge term in one kernel over blocks of 8000 edges, adds it to the message on the
  host and accumulates the sum with ONE scatter-add, then computes the two linear maps, the biases and the positive
  part in a second kernel over blocks of 2000 nodes. The reference accumulates the message and the edge term with TWO
  scatter-adds and adds the results, and does the linear maps as whole-array products.

  On exact extended-real values the two agree: every matrix product is the same finite sum of products, changes of float
  format are the identity, and accumulating a sum of two update arrays equals adding the two accumulations, because the
  accumulation is a finite sum at each slot and a finite sum of sums splits. That law uses only commutativity and
  associativity of addition, so the finiteness of the inputs is never used. No operation of the kernel program needed
  rewriting to be read at exact values, so its idealization is its own text.
-/
import proofs.«114334_j61297773248646_1_alg».proof.Defs
import proofs.«114334_j61297773248646_1_alg».proof.Proof.Gen.Kernel
import proofs.«114334_j61297773248646_1_alg».proof.Proof.Gen.Kernel.Skeleton
import proofs.«114334_j61297773248646_1_alg».proof.Proof.Gen.Kernel.Launch
import proofs.«114334_j61297773248646_1_alg».proof.Proof.Gen.Kernel.Points
import proofs.«114334_j61297773248646_1_alg».proof.Proof.Gen.Kernel.Frame
import proofs.«114334_j61297773248646_1_alg».proof.Proof.Gen.KernelIdeal
import proofs.«114334_j61297773248646_1_alg».proof.Proof.Gen.KernelIdeal.Skeleton
import proofs.«114334_j61297773248646_1_alg».proof.Proof.Gen.KernelIdeal.Launch
import proofs.«114334_j61297773248646_1_alg».proof.Proof.Gen.KernelIdeal.Points
import proofs.«114334_j61297773248646_1_alg».proof.Proof.Gen.KernelIdeal.Frame
import proofs.«114334_j61297773248646_1_alg».proof.Proof.Gen.ReferenceIdeal
import proofs.«114334_j61297773248646_1_alg».proof.Proof.Gen.Pre_finite_inputs
import proofs.«114334_j61297773248646_1_alg».proof.Proof.Gen.ReferenceIdeal.Run
import proofs.«114334_j61297773248646_1_alg».proof.Proof.Gen.ReferenceIdeal.Read
import proofs.«114334_j61297773248646_1_alg».proof.Proof.KernelRun
import proofs.«114334_j61297773248646_1_alg».proof.Proof.KernelValue
import proofs.«114334_j61297773248646_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernel_ideal : Cert.frame_KernelIdeal := fun m ρ _ => Cert.KernelIdeal.Gen.frame m ρ

/-- The idealized reference runs and leaves its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the ten arguments both idealized programs end with the same result: the kernel
    program's result function of the arguments, which is the reference's last stage of the same arguments. -/
theorem algebraic : Cert.algebraic_KernelIdeal_ReferenceIdeal := by
  intro m ρ m' ρ' _ hagree
  refine ⟨fun c => Cert.KernelIdeal.KernelValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KernelValue.result_eq m ρ c), (h c).2⟩)
      (Cert.KernelIdeal.KernelRun.run_named (F := Ideal) m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9⟩ := hagree c
    rw [(h c).1, Cert.ReferenceIdeal.Read.val_main_v46_eq, ← Cert.Bridge.result_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
